-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel

variable [Facts]

def fn {F : FTy → Type} [FloatOps F] (main_arg0 : FVec F S8x2048x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  main_v3
-- ==== Kernel.lean ====
abbrev S8x2048x256 : Shape := ⟨3, ![8, 2048, 256]⟩
abbrev S1x2048x256 : Shape := ⟨3, ![1, 2048, 256]⟩
abbrev S1x1024x256 : Shape := ⟨3, ![1, 1024, 256]⟩
abbrev S1024x256 : Shape := ⟨2, ![1024, 256]⟩
abbrev S2048x256 : Shape := ⟨2, ![2048, 256]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 2
  | .vmem => 4
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S1x1024x256, .f32⟩
  | .local _ .vmem, ⟨3, _⟩ => ⟨S1x1024x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 3 → Nat :=
  let c0 : Index := 0#32
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0_0 : Index := 0#32
  ![0, v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  h_S1x1024x256 : 0 < S1x1024x256.numel
  shapeCasts_S1x1024x256_S1024x256 : S1x1024x256.ShapeCasts S1024x256
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x256 : S1024x1.Broadcasts S1024x256
  inb_S1x1024x256_S1x1024x256_0_0_0 : ∀ a, (![0, 0, 0] : Fin 3 → Nat) a + S1x1024x256.size a ≤ S1x1024x256.size a
  shapeCasts_S1024x256_S1x1024x256 : S1024x256.ShapeCasts S1x1024x256
  dot_S1024x256_S2048x256_S1024x2048_1_1_0_0_n_n_wf : DotDims.WF S1024x256 S2048x256 S1024x2048 [1] [1] [0] [0] [] []
  dot_S1024x2048_S2048x256_S1024x256_1_0_0_1_n_n_wf : DotDims.WF S1024x2048 S2048x256 S1024x256 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x256.size a ≤ S1x2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S8x2048x256.size a
  hwx0_1 : ∀ i : grid0.Coords, EltTy.bits .f32 = 32 ∨ (Rect.block (s := S8x2048x256) S1x1024x256.size (cc0_transform_1 i) (hinb0_1 i)).WholeWords (EltTy.packing .f32)

variable [Facts₀]

def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S_, .f32⟩
  | .hbm, ⟨3, _⟩ => ⟨S_, .f32⟩
  | .hbm, ⟨4, _⟩ => ⟨S8x2048x2048, .f32⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048x1, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.LibERealSums.lean ====
/-
  Finite sums and maxima of real numbers inside the extended reals.

  The coercion of the reals into the extended reals carries a finite sum to the sum and a maximum to the maximum;
  and folding `max` from `-∞` over a nonempty finite family of reals gives a real. These are what turns a row
  statistic of finite inputs (a sum, a maximum, a log-sum-exp) into a real number, where the extended reals'
  failures of distributivity and cancellation at the infinities cannot occur.
-/
import Mathlib.Data.EReal.Basic
import Mathlib.Algebra.BigOperators.Group.Finset.Basic
import Mathlib.Data.Finset.Fold

noncomputable section

open scoped BigOperators

namespace Cert.Lib.ERealSums

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of their maximum. -/
theorem coe_max_real (a b : ℝ) : max (a : EReal) (b : EReal) = ((max a b : ℝ) : EReal) :=
  (EReal.coe_strictMono.monotone.map_max).symm

/-- Folding `max` from `-∞` over a nonempty family of reals gives a real. -/
theorem fold_max_real {ι : Type*} (s : Finset ι) (hs : s.Nonempty) (a : ι → ℝ) :
    ∃ M : ℝ, s.fold max ⊥ (fun i => ((a i : ℝ) : EReal)) = (M : EReal) := by
  induction hs using Finset.Nonempty.cons_induction with
  | singleton i => exact ⟨a i, by rw [Finset.fold_singleton, max_bot_right]⟩
  | cons i s hi hs ih =>
    obtain ⟨M, hM⟩ := ih
    exact ⟨max (a i) M, by rw [Finset.fold_cons, hM, coe_max_real]⟩

end Cert.Lib.ERealSums

end
-- ==== Proof.LibAttnLaw.lean ====
/-
  Single-pass softmax attention of one query row, in two arrangements, and their equality on finite data.

  For a query row Q (length D), keys and values X (N rows of length D), an output column d:

    arrangement A ("scale the query, normalise last"):
      s m = ∑ k, (Q k * c) * X m k,   M = max over m of s m (folded from ninf),   e m = exp (s m - M),
      out = (∑ m, e m * X m d) / (∑ m, e m)

    arrangement B ("scale the scores, normalise the weights"):
      s m = (∑ k, Q k * X m k) / q,   M = max ninf (max over m of s m),   e m = exp (s m - M),
      out = ∑ m, (e m / (zero + ∑ m', e m')) * X m d

  On the extended reals the two differ at infinities (a factor cannot be moved across a sum, nor a quotient
  distributed over one). When every entry of Q and X is a real number, q is a nonzero real and c = 1/q, ninf = -∞,
  zero = 0 and there is at least one key, every intermediate value is a real number, the sum of the exponentials is a
  positive real, and the two are equal by the field laws of ℝ (`outA_eq_outB`). The statement is over any numbers N
  of keys and D of features. (The sums and the maximum of coerced reals are read through LibERealSums.)
-/
import Idealize.ShloMosaic.PureOps.Ideal
import proofs.«142337_j18992345382979_2_alg».proof.Proof.LibERealSums

noncomputable section

open scoped BigOperators
open Idealize.ShloMosaic

namespace Cert.Lib.Attn

variable {N D : ℕ}

/-- The scores of arrangement A: the query scaled entry by entry before the inner products. -/
def scoreA (c : EReal) (Q : Fin D → EReal) (X : Fin N → Fin D → EReal) (m : Fin N) : EReal :=
  ∑ k : Fin D, (Q k * c) * X m k

/-- The scores of arrangement B: the inner products divided by q. -/
def scoreB (q : EReal) (Q : Fin D → EReal) (X : Fin N → Fin D → EReal) (m : Fin N) : EReal :=
  Ideal.div (∑ k : Fin D, Q k * X m k) q

/-- The maximum of a row, folded from `ninf`. -/
def rowMax (ninf : EReal) (S : Fin N → EReal) : EReal := (Finset.univ : Finset (Fin N)).fold max ninf S

/-- Arrangement A. -/
def outA (c ninf : EReal) (Q : Fin D → EReal) (X : Fin N → Fin D → EReal) (d : Fin D) : EReal :=
  Ideal.div (∑ m : Fin N, Ideal.exp (scoreA c Q X m - rowMax ninf (scoreA c Q X)) * X m d)
    (∑ m : Fin N, Ideal.exp (scoreA c Q X m - rowMax ninf (scoreA c Q X)))

/-- Arrangement B. -/
def outB (q ninf zero : EReal) (Q : Fin D → EReal) (X : Fin N → Fin D → EReal) (d : Fin D) : EReal :=
  ∑ m : Fin N, Ideal.div (Ideal.exp (scoreB q Q X m - max ninf (rowMax ninf (scoreB q Q X))))
      (zero + ∑ m' : Fin N, Ideal.exp (scoreB q Q X m' - max ninf (rowMax ninf (scoreB q Q X)))) * X m d

/-- On real data the scaled-query scores are the real scores. -/
theorem scoreA_real (q : ℝ) (a : Fin D → ℝ) (x : Fin N → Fin D → ℝ) (m : Fin N) :
    scoreA (((1 / q : ℝ) : ℝ) : EReal) (fun k => (a k : EReal)) (fun m k => (x m k : EReal)) m
      = (((∑ k : Fin D, a k * x m k) * (1 / q) : ℝ) : EReal) := by
  unfold scoreA
  simp only [← EReal.coe_mul]
  rw [Cert.Lib.ERealSums.coe_sum_real, Finset.sum_mul]
  exact congrArg _ (Finset.sum_congr rfl fun k _ => by ring)

/-- On real data the divided scores are the real scores. -/
theorem scoreB_real (q : ℝ) (hq : q ≠ 0) (a : Fin D → ℝ) (x : Fin N → Fin D → ℝ) (m : Fin N) :
    scoreB ((q : ℝ) : EReal) (fun k => (a k : EReal)) (fun m k => (x m k : EReal)) m
      = (((∑ k : Fin D, a k * x m k) * (1 / q) : ℝ) : EReal) := by
  unfold scoreB
  simp only [← EReal.coe_mul]
  rw [Cert.Lib.ERealSums.coe_sum_real, Ideal.div_coe hq, ← EReal.coe_mul]

/-- The two arrangements agree on real data. -/
theorem outA_eq_outB (q : ℝ) (hq : q ≠ 0) (hN : 0 < N) (Q : Fin D → EReal) (X : Fin N → Fin D → EReal)
    (hQ : ∀ k, ∃ r : ℝ, Q k = (r : EReal)) (hX : ∀ m k, ∃ r : ℝ, X m k = (r : EReal)) (d : Fin D) :
    outA (((1 / q : ℝ) : ℝ) : EReal) ⊥ Q X d = outB ((q : ℝ) : EReal) ⊥ 0 Q X d := by
  choose a ha using hQ
  choose x hx using hX
  obtain rfl : Q = fun k => (a k : EReal) := funext ha
  obtain rfl : X = fun m k => (x m k : EReal) := funext fun m => funext fun k => hx m k
  haveI : Nonempty (Fin N) := ⟨⟨0, hN⟩⟩
  have hne : (Finset.univ : Finset (Fin N)).Nonempty := Finset.univ_nonempty
  unfold outA outB
  have eA : scoreA (((1 / q : ℝ) : ℝ) : EReal) (fun k => (a k : EReal)) (fun m k => (x m k : EReal))
      = fun m => (((∑ k : Fin D, a k * x m k) * (1 / q) : ℝ) : EReal) := funext (scoreA_real q a x)
  have eB : scoreB ((q : ℝ) : EReal) (fun k => (a k : EReal)) (fun m k => (x m k : EReal))
      = fun m => (((∑ k : Fin D, a k * x m k) * (1 / q) : ℝ) : EReal) := funext (scoreB_real q hq a x)
  rw [eA, eB]
  obtain ⟨M, hM⟩ := Cert.Lib.ERealSums.fold_max_real Finset.univ hne fun m => (∑ k : Fin D, a k * x m k) * (1 / q)
  have hM' : rowMax ⊥ (fun m => (((∑ k : Fin D, a k * x m k) * (1 / q) : ℝ) : EReal)) = (M : EReal) := hM
  rw [hM', max_eq_right (bot_le : (⊥ : EReal) ≤ (M : EReal))]
  simp only [← EReal.coe_sub, Ideal.exp_coe, ← EReal.coe_mul]
  rw [Cert.Lib.ERealSums.coe_sum_real, Cert.Lib.ERealSums.coe_sum_real, zero_add]
  have hpos : 0 < ∑ m : Fin N, Real.exp ((∑ k : Fin D, a k * x m k) * (1 / q) - M) :=
    Finset.sum_pos (fun m _ => Real.exp_pos _) hne
  rw [Ideal.div_coe hpos.ne', ← EReal.coe_mul]
  simp only [Ideal.div_coe hpos.ne', ← EReal.coe_mul]
  rw [Cert.Lib.ERealSums.coe_sum_real, Finset.sum_mul]
  exact congrArg _ (Finset.sum_congr rfl fun m _ => by ring)

end Cert.Lib.Attn

end
-- ==== Proof.Spec.lean ====
/-
  The result both programs compute, as one function of the argument array.

  Entry (b, n, d) of the result is the single-pass softmax attention (LibAttnLaw, arrangement A, with the scale 1/16 and
  the maximum folded from -∞) of the query row x[b, n, ·] against the keys and values x[b, ·, ·], at column d. The
  constants the two programs spell are read here: 0x3D800000 is 1/16, 0x43800000 is 256 whose square root is 16,
  0xFF800000 is -∞ and 0x7F800000 is +∞. On an array of real numbers arrangement B with the reference's constants
  is the same function.
-/
import proofs.«142337_j18992345382979_2_alg».proof.Proof.LibAttnLaw
import Idealize.ShloMosaic.Lib.ValueIdx
import Idealize.ShloMosaic.PureOps.Ideal.Laws

noncomputable section

open scoped BigOperators

namespace Cert.Spec

open Idealize.ShloMosaic Idealize.ShloMosaic.ValueIdx

/-- The shape of the argument and of the result. -/
abbrev SArr : Shape := ⟨3, ![8, 2048, 256]⟩

/-- The attention of query row n of batch b, at column d. -/
def attnAt (x : SArr.Idx → EReal) (b : Fin 8) (n : Fin 2048) (d : Fin 256) : EReal :=
  Cert.Lib.Attn.outA (Ideal.ofBits .f32 0x3D800000#32) (Ideal.ofBits .f32 0xFF800000#32)
    (fun k : Fin 256 => x (ix3 b n k)) (fun (m : Fin 2048) (k : Fin 256) => x (ix3 b m k)) d

/-- The result array. -/
def G (x : SArr.Idx → EReal) : SArr.Idx → EReal := fun i => attnAt x (i 0) (i 1) (i 2)

theorem G_apply (x : SArr.Idx → EReal) (b : Fin 8) (n : Fin 2048) (d : Fin 256) : G x (ix3 b n d) = attnAt x b n d := rfl

/-! ## The constants -/

theorem ofBits_sixteenth : Ideal.ofBits .f32 0x3D800000#32 = (((1 / 16 : ℝ) : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_ninf : Ideal.ofBits .f32 0xFF800000#32 = ⊥ := by
  simp [Ideal.ofBits, Ideal.ieee]

theorem ofBits_pinf : Ideal.ofBits .f32 0x7F800000#32 = ⊤ := by
  simp [Ideal.ofBits, Ideal.ieee]

theorem sqrt_256 : Ideal.sqrt (Ideal.ofBits .f32 0x43800000#32) = ((16 : ℝ) : EReal) := by
  rw [ofBits_256, Ideal.sqrt_coe, if_neg (by norm_num)]
  rw [show (256 : ℝ) = 16 ^ 2 by norm_num, Real.sqrt_sq (by norm_num)]

/-! ## The reference's arrangement is the same function on real data -/

theorem outB_eq_attnAt (x : SArr.Idx → EReal) (hx : ∀ i, ∃ r : ℝ, x i = (r : EReal)) (b : Fin 8) (n : Fin 2048)
    (d : Fin 256) :
    Cert.Lib.Attn.outB (Ideal.sqrt (Ideal.ofBits .f32 0x43800000#32)) (Ideal.ofBits .f32 0xFF800000#32)
        (Ideal.ofBits .f32 0x00000000#32) (fun k : Fin 256 => x (ix3 b n k))
        (fun (m : Fin 2048) (k : Fin 256) => x (ix3 b m k)) d
      = attnAt x b n d := by
  unfold attnAt
  rw [sqrt_256, ofBits_ninf, Ideal.ofBits_zero_f32, ofBits_sixteenth]
  exact (Cert.Lib.Attn.outA_eq_outB 16 (by norm_num) (by decide) _ _ (fun k => hx _) (fun m k => hx _) d).symm

end Cert.Spec

end
-- ==== Proof.Finite.lean ====
/-
  The precondition read back: every entry of the argument array is a real number.

  The precondition is the conjunction, over all entries, of |x| < +∞; an extended real whose absolute value
  max x (-x) is below +∞ is neither infinity, so it is a real number.
-/
import proofs.«142337_j18992345382979_2_alg».proof.Pre_finite_inputs
import proofs.«142337_j18992345382979_2_alg».proof.Proof.Gen.Pre_finite_inputs
import proofs.«142337_j18992345382979_2_alg».proof.Proof.Spec
import Idealize.ShloMosaic.Lib.ReduceAll
import Idealize.ShloMosaic.Lib.ValueIdx

noncomputable section

namespace Cert.Finite

open Idealize.ShloMosaic Idealize.ShloMosaic.ValueIdx

instance : Subsingleton Cert.Pre_finite_inputs.S_.Idx := ⟨fun a b => funext fun d => d.elim0⟩

/-- An extended real whose absolute value is below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- Under the precondition every entry is a real number. -/
theorem real_of_pre (x : FVec Ideal Cert.Pre_finite_inputs.S8x2048x256 .f32)
    (h : Cert.Pre_finite_inputs.fn (F := Ideal) x = fun _ => 1#1) (i : Cert.Pre_finite_inputs.S8x2048x256.Idx) :
    ∃ r : ℝ, x i = (r : EReal) := by
  have h0 := congrFun h ix0
  dsimp only [Cert.Pre_finite_inputs.fn] at h0
  have hi := Host.reduce_andi_all _ _ _ _ _ h0 i
  have hc : Ideal.cmp .olt (max (x i) (-(x i))) (Ideal.ofBits .f32 0x7F800000#32) = 1#1 := hi
  rw [Cert.Spec.ofBits_pinf] at hc
  have hc' : BitVec.ofBool (decide (max (x i) (-(x i)) < ⊤)) = 1#1 := hc
  refine real_of_abs_lt_top _ ?_
  by_contra hn
  rw [decide_eq_false hn] at hc'
  exact absurd hc' (by decide)

end Cert.Finite

end
-- ==== Proof.RefRead.lean ====
/-
  The reference program read at an index.

  At result index (b, n, d) the reference computes arrangement B of single-pass softmax attention (LibAttnLaw) of the
  query row x[b, n, ·] against the keys and values x[b, ·, ·]: the inner products divided by √256, the row maximum
  (a fold of max from -∞, then once more against -∞), the exponentials of the differences, their sum from 0, the
  weights as quotients, and the weighted sum of the value column d.
-/
import proofs.«142337_j18992345382979_2_alg».proof.Proof.Gen.ReferenceIdeal.Read
import proofs.«142337_j18992345382979_2_alg».proof.Proof.LibAttnLaw
import Idealize.ShloMosaic.Lib.ValueIdx
import Idealize.ShloMosaic.PureOps.Ideal.Laws

noncomputable section

open scoped BigOperators

namespace Cert.ReferenceIdeal.RefRead

open Cert.ReferenceIdeal Cert.ReferenceIdeal.Gen Cert.ReferenceIdeal.Read
open Idealize.ShloMosaic Idealize.ShloMosaic.ValueIdx

variable (x : (⟨S8x2048x256, .f32⟩ : BufTy).Contents (Elt Ideal))

/-- The scaled scores: entry (b, n, m) is the inner product of rows n and m of batch b, divided by √256. -/
theorem scores_apply (b : Fin 8) (n m : Fin 2048) :
    val_main_v3 (F := Ideal) x (ix3 b n m)
      = Cert.Lib.Attn.scoreB (Ideal.sqrt (Ideal.ofBits .f32 0x43800000#32)) (fun k : Fin 256 => x (ix3 b n k))
          (fun (m : Fin 2048) (k : Fin 256) => x (ix3 b m k)) m := by
  rw [val_main_v3_apply, val_main_v0_apply, val_main_v2_apply, val_main_v1_apply, val_main_cst_apply]
  have el : ∀ k : Fin 256, lidx_main_v0 (ix3 b n m) k = ix3 b n k := fun k => funext fun a => Fin.ext (by
    match a with | ⟨0, _⟩ => rfl | ⟨1, _⟩ => rfl | ⟨2, _⟩ => rfl)
  have er : ∀ k : Fin 256, ridx_main_v0 (ix3 b n m) k = ix3 b m k := fun k => funext fun a => Fin.ext (by
    match a with | ⟨0, _⟩ => rfl | ⟨1, _⟩ => rfl | ⟨2, _⟩ => rfl)
  simp only [el, er]
  rfl

/-- The row maximum: entry (b, n) is the fold of max from -∞ over the scores of row n. -/
theorem rowmax_apply (b : Fin 8) (n : Fin 2048) :
    val_main_v4 (F := Ideal) x (ix2 b n)
      = Cert.Lib.Attn.rowMax (Ideal.ofBits .f32 0xFF800000#32)
          (Cert.Lib.Attn.scoreB (Ideal.sqrt (Ideal.ofBits .f32 0x43800000#32)) (fun k : Fin 256 => x (ix3 b n k))
            (fun (m : Fin 2048) (k : Fin 256) => x (ix3 b m k))) := by
  have h : S8x2048x2048.Reduces [2] S8x2048 := by decide
  unfold val_main_v4
  rw [Host.reduce_eq_fold_single FloatOps.maximumf _ _ reducesTo_S8x2048x2048_S8x2048_d2 h h_S_]
  have hl : (val_main_v3 (F := Ideal) x ∘ h.lift (ix2 b n))
      = Cert.Lib.Attn.scoreB (Ideal.sqrt (Ideal.ofBits .f32 0x43800000#32)) (fun k : Fin 256 => x (ix3 b n k))
          (fun (m : Fin 2048) (k : Fin 256) => x (ix3 b m k)) :=
    funext fun m => (congrArg (val_main_v3 (F := Ideal) x) (funext fun a => Fin.ext (by
      match a with | ⟨0, _⟩ => rfl | ⟨1, _⟩ => rfl | ⟨2, _⟩ => rfl))).trans (scores_apply x b n m)
  exact congrArg (fun f : Fin 2048 → EReal => (Finset.univ : Finset (Fin 2048)).fold max (Ideal.ofBits .f32 0xFF800000#32) f) hl

/-- The maximum broadcast back over the row. -/
theorem max_apply (b : Fin 8) (n m : Fin 2048) :
    val_main_v8 (F := Ideal) x (ix3 b n m)
      = max (Ideal.ofBits .f32 0xFF800000#32) (Cert.Lib.Attn.rowMax (Ideal.ofBits .f32 0xFF800000#32)
          (Cert.Lib.Attn.scoreB (Ideal.sqrt (Ideal.ofBits .f32 0x43800000#32)) (fun k : Fin 256 => x (ix3 b n k))
            (fun (m : Fin 2048) (k : Fin 256) => x (ix3 b m k)))) := by
  rw [val_main_v8_apply, val_main_v7_apply, val_main_v6_apply, val_main_v5_apply, val_main_cst_1_apply]
  have e : idx_main_v7 (idx_main_v8 (ix3 b n m)) = ix2 b n := funext fun a => Fin.ext (by
    match a with | ⟨0, _⟩ => rfl | ⟨1, _⟩ => rfl)
  rw [e, rowmax_apply]
  rfl

/-- The exponentials. -/
theorem exp_apply (b : Fin 8) (n m : Fin 2048) :
    val_main_v10 (F := Ideal) x (ix3 b n m)
      = Ideal.exp (Cert.Lib.Attn.scoreB (Ideal.sqrt (Ideal.ofBits .f32 0x43800000#32)) (fun k : Fin 256 => x (ix3 b n k))
            (fun (m : Fin 2048) (k : Fin 256) => x (ix3 b m k)) m
          - max (Ideal.ofBits .f32 0xFF800000#32) (Cert.Lib.Attn.rowMax (Ideal.ofBits .f32 0xFF800000#32)
              (Cert.Lib.Attn.scoreB (Ideal.sqrt (Ideal.ofBits .f32 0x43800000#32)) (fun k : Fin 256 => x (ix3 b n k))
                (fun (m : Fin 2048) (k : Fin 256) => x (ix3 b m k))))) := by
  rw [val_main_v10_apply, val_main_v9_apply, max_apply, scores_apply]
  rfl

/-- The row sums of the exponentials, from 0, broadcast back over the row. -/
theorem denom_apply (b : Fin 8) (n m : Fin 2048) :
    val_main_v13 (F := Ideal) x (ix3 b n m)
      = Ideal.ofBits .f32 0x00000000#32 + ∑ m' : Fin 2048,
          Ideal.exp (Cert.Lib.Attn.scoreB (Ideal.sqrt (Ideal.ofBits .f32 0x43800000#32)) (fun k : Fin 256 => x (ix3 b n k))
            (fun (m : Fin 2048) (k : Fin 256) => x (ix3 b m k)) m'
          - max (Ideal.ofBits .f32 0xFF800000#32) (Cert.Lib.Attn.rowMax (Ideal.ofBits .f32 0xFF800000#32)
              (Cert.Lib.Attn.scoreB (Ideal.sqrt (Ideal.ofBits .f32 0x43800000#32)) (fun k : Fin 256 => x (ix3 b n k))
                (fun (m : Fin 2048) (k : Fin 256) => x (ix3 b m k))))) := by
  rw [val_main_v13_apply, val_main_v12_apply, val_main_v11_apply, val_main_cst_2_apply]
  have e : idx_main_v12 (idx_main_v13 (ix3 b n m)) = ix2 b n := funext fun a => Fin.ext (by
    match a with | ⟨0, _⟩ => rfl | ⟨1, _⟩ => rfl)
  have e2 : ∀ k : Fin 2048, idx_main_v11 (ix2 b n) k = ix3 b n k := fun k => funext fun a => Fin.ext (by
    match a with | ⟨0, _⟩ => rfl | ⟨1, _⟩ => rfl | ⟨2, _⟩ => rfl)
  rw [e]
  simp only [e2, exp_apply]
  rfl

/-- The reference's result at (b, n, d) is arrangement B of the attention of row n against batch b. -/
theorem result_apply (b : Fin 8) (n : Fin 2048) (d : Fin 256) :
    val_main_v15 (F := Ideal) x (ix3 b n d)
      = Cert.Lib.Attn.outB (Ideal.sqrt (Ideal.ofBits .f32 0x43800000#32)) (Ideal.ofBits .f32 0xFF800000#32)
          (Ideal.ofBits .f32 0x00000000#32) (fun k : Fin 256 => x (ix3 b n k))
          (fun (m : Fin 2048) (k : Fin 256) => x (ix3 b m k)) d := by
  rw [val_main_v15_apply]
  unfold Cert.Lib.Attn.outB
  have el : ∀ k : Fin 2048, lidx_main_v15 (ix3 b n d) k = ix3 b n k := fun k => funext fun a => Fin.ext (by
    match a with | ⟨0, _⟩ => rfl | ⟨1, _⟩ => rfl | ⟨2, _⟩ => rfl)
  have er : ∀ k : Fin 2048, ridx_main_v15 (ix3 b n d) k = ix3 b k d := fun k => funext fun a => Fin.ext (by
    match a with | ⟨0, _⟩ => rfl | ⟨1, _⟩ => rfl | ⟨2, _⟩ => rfl)
  refine Finset.sum_congr rfl fun m _ => ?_
  rw [el, er, val_main_v14_apply, exp_apply, denom_apply]
  rfl

end Cert.ReferenceIdeal.RefRead

end
-- ==== Proof.Piece.lean ====
/-
  What the kernel body leaves in its output block.

  The body loads a tile of 1024 query rows (at row offset 1024·qt) and the whole 2048-row slab from its input
  block, and makes one store that covers its output block: so the block ends holding that store's value, the
  body's arithmetic applied to the tile and the slab.
-/
import proofs.«142337_j18992345382979_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Piece

open Cert.KernelIdeal Cert.KernelIdeal.Gen

variable {F : FTy → Type} [FloatOps F]

theorem hz : (![0, 0, 0] : Fin 3 → Nat) = fun _ => 0 := funext fun a => by fin_cases a <;> rfl

/-- The tile of query rows the body loads from an input block `x0`: rows 1024·qt … 1024·qt + 1023. -/
abbrev qtile (i : grid0.Coords) (x0 : Vec F S1x2048x256 .f32) : Vec F S1x1024x256 .f32 :=
  View.ld x0 (Rect.unit (s := S1x2048x256) (k0_off1 i) S1x1024x256.size (Facts₀.k0_off1_inb i))

/-- The output block after the body: the body's arithmetic of the query tile and the whole input block. -/
theorem out_eq (c : Dev nD) (i : grid0.Coords) (a2 : Memref sig .tc .vmem S1x2048x256 .f32) (h2 : a2.IsWhole)
    (a3 : Memref sig .tc .vmem S1x1024x256 .f32) (h3 : a3.IsWhole) (x0 : Vec F S1x2048x256 .f32) :
    out0_A_1 c i a2 h2 a3 h3 x0 = k0_pay1 (qtile i x0) x0 := by
  unfold out0_A_1
  rw [View.read_writes_eq_canon _ _ _ (cover0_A_1 c i a2 h2 a3 h3 x0)]
  unfold kernelRun0_A
  dsimp only
  rw [View.canon_unit_zero hz]
  simp only [View.readAt_eq_ld, h2.read_unread, View.ld_unit_zero (S := S1x2048x256) hz]

end Cert.KernelIdeal.Piece

end
-- ==== Proof.LibRowDot.lean ====
/-
  A matrix product against a row-major weight, read at an index.

  The dimension numbers of an [a, c] × [b, c] → [a, b] product contract axis 1 of BOTH operands and have no batch
  axis: the right operand is a stack of b rows of length c, and result entry (p, q) is the inner product of the left
  operand's row p with the right operand's row q. At result index (p, q) and contraction position k the left operand
  is read at (p, k) and the right operand at (q, k), so the sum over the contraction shape's one-axis index set is
  the sum over k : Fin c of lhs (p, k) * rhs (q, k) — in any commutative additive monoid with a product, the
  extended reals included. The statement is over variable extents; a printed record with these six lists is this
  one by reflexivity.
-/
import Idealize.ShloMosaic.Lib.ValueIdx
import Idealize.ShloMosaic.PureOps.Ideal.Laws

noncomputable section

namespace Cert.Lib.RowDot

open Idealize.ShloMosaic Idealize.ShloMosaic.ValueIdx
open scoped BigOperators

variable {a c b : Nat}

/-- The dimension numbers of the product [a, c] × [b, c] → [a, b] that contracts the second axis of both. -/
abbrev dims (wf : DotDims.WF ⟨2, ![a, c]⟩ ⟨2, ![b, c]⟩ ⟨2, ![a, b]⟩ [1] [1] [0] [0] [] []) :
    DotDims ⟨2, ![a, c]⟩ ⟨2, ![b, c]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, c]⟩ ⟨2, ![b, c]⟩ ⟨2, ![a, b]⟩ [1] [1] [0] [0] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the result's column. -/
theorem rhs_row (i : (⟨2, ![a, b]⟩ : Shape).Idx) (k : (dims wf).contr.Idx) :
    ((dims wf).rhsIdx i k 0).val = (i 1).val := by
  unfold DotDims.rhsIdx
  rw [dif_neg (show ¬(0 : Fin 2) ∈ (dims wf).rhsBatch from List.not_mem_nil),
    dif_pos (show (0 : Fin 2) ∈ (dims wf).rhsNonContracting from List.mem_singleton.mpr rfl)]
  rfl

/-- The right operand's column is the contraction position. -/
theorem rhs_col (i : (⟨2, ![a, b]⟩ : Shape).Idx) (k : (dims wf).contr.Idx) :
    ((dims wf).rhsIdx i k 1).val = (k ⟨0, Nat.one_pos⟩).val :=
  (dims wf).rhsIdx_val_of_single rfl i k

/-- The product's sum at (p, q): over k, the left operand at (p, k) times the right operand at (q, k). -/
theorem sum_apply {M : Type*} [AddCommMonoid M] [Mul M] (lhs : (⟨2, ![a, c]⟩ : Shape).Idx → M)
    (rhs : (⟨2, ![b, c]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 q k) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 q k :=
    funext fun ax => Fin.ext (by
      match ax with
      | ⟨0, _⟩ => exact rhs_row wf _ _
      | ⟨1, _⟩ => exact (rhs_col wf _ _).trans hk)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![b, c]⟩ φ₂) (p : Fin a) (q : Fin b) :
    matmul (dims wf) prec lhs rhs (constant ⟨2, ![a, b]⟩ .f32 0x00000000#32) (ix2 p q)
      = ∑ k : Fin c, lhs (ix2 p k) * rhs (ix2 q k) :=
  (Ideal.matmul_constant_zero_apply (dims wf) prec lhs rhs (ix2 p q)).trans (sum_apply wf lhs rhs p q)

end Cert.Lib.RowDot

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibUnitAxis.lean ====
/-
  A leading unit axis read at an index.

  A block of shape [1, h, w] and the matrix of shape [h, w] with the same entries in row-major order: viewing the
  block as the matrix reads (0, r, c) at (r, c), and storing the matrix as a block reads (r, c) at (·, r, c). For any
  element type and any extents.
-/
import Idealize.ShloMosaic.Lib.Pipeline.Value
import Idealize.ShloMosaic.Lib.ValueIdx

noncomputable section

namespace Cert.Lib.UnitAxis

open Idealize.ShloMosaic Idealize.ShloMosaic.ValueIdx

/-- A block [1, h, w] viewed [h, w] reads (0, r, c) at (r, c). -/
theorem drop_apply {h w : Nat} {α : Type} (v : (⟨3, ![1, h, w]⟩ : Shape).Idx → α)
    (hc : (⟨3, ![1, h, w]⟩ : Shape).ShapeCasts ⟨2, ![h, w]⟩) (r : Fin h) (c : Fin w) :
    shapeCast ⟨2, ![h, w]⟩ v hc (ix2 r c) = v (ix3 (0 : Fin 1) r c) :=
  shapeCast_apply v hc _ _ (by
    rw [Shape.rowMajor_val_three, Shape.rowMajor_val_two]
    show (0 * h + r.val) * w + c.val = r.val * w + c.val
    rw [Nat.zero_mul, Nat.zero_add])

/-- An [h, w] value stored as a block [1, h, w] reads (r, c) at (u, r, c). -/
theorem add_apply {h w : Nat} {α : Type} (v : (⟨2, ![h, w]⟩ : Shape).Idx → α)
    (hc : (⟨2, ![h, w]⟩ : Shape).ShapeCasts ⟨3, ![1, h, w]⟩) (u : Fin 1) (r : Fin h) (c : Fin w) :
    shapeCast ⟨3, ![1, h, w]⟩ v hc (ix3 u r c) = v (ix2 r c) :=
  shapeCast_apply v hc _ _ (by
    have hu : u.val = 0 := by omega
    rw [Shape.rowMajor_val_three, Shape.rowMajor_val_two]
    show r.val * w + c.val = (u.val * h + r.val) * w + c.val
    rw [hu, Nat.zero_mul, Nat.zero_add])

end Cert.Lib.UnitAxis

end
-- ==== Proof.Payload.lean ====
/-
  The kernel body's arithmetic read at an index, at the exact values.

  From a tile of query rows `v3` ([1, 1024, 256]) and a slab of keys and values `v8` ([1, 2048, 256]) the body
  computes, at row r and column d of its [1, 1024, 256] result, arrangement A of single-pass softmax attention
  (LibAttnLaw) of the query row v3[0, r, ·] against v8[0, ·, ·]: the query scaled by the constant 0x3D800000 entry by
  entry, the inner products with every row of the slab, the row maximum folded from -∞, the exponentials of the
  differences, their product with the slab, and the quotient by the sum of the exponentials. The changes of format
  are the identity at the exact values; the two matrix products into a zero accumulator are plain sums.
-/
import proofs.«142337_j18992345382979_2_alg».proof.Proof.Gen.KernelIdeal.Skeleton
import proofs.«142337_j18992345382979_2_alg».proof.Proof.LibAttnLaw
import proofs.«142337_j18992345382979_2_alg».proof.Proof.LibRowDot
import proofs.«142337_j18992345382979_2_alg».proof.Proof.LibPlainDot
import proofs.«142337_j18992345382979_2_alg».proof.Proof.LibKeepdims
import proofs.«142337_j18992345382979_2_alg».proof.Proof.LibUnitAxis
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The row statistics of a 1024 × 2048 matrix -/

/-- The maximum along a row, folded from -∞. -/
theorem rmax_apply (s : FVec Ideal S1024x2048 .f32) (r : Fin 1024) :
    multiReduction .maximumf [1] S1024 s 0xFF800000#32 reduces_S1024x2048_S1024 (.inl rfl) rfl (ix1 r)
      = Cert.Lib.Attn.rowMax (Ideal.ofBits .f32 0xFF800000#32) (fun m : Fin 2048 => s (ix2 r m)) :=
  (Ideal.multiReduction_maximumf_single s _ reduces_S1024x2048_S1024 _ _ (ix1 r)).trans
    (congrArg (fun f : Fin 2048 → EReal => (Finset.univ : Finset (Fin 2048)).fold max (Ideal.ofBits .f32 0xFF800000#32) f)
      (funext fun m => congrArg s (funext fun a => Fin.ext (by
        match a with | ⟨0, _⟩ => rfl | ⟨1, _⟩ => rfl))))

/-- The sum along a row. -/
theorem rsum_apply (e : FVec Ideal S1024x2048 .f32) (r : Fin 1024) :
    multiReduction .add [1] S1024 e 0x00000000#32 reduces_S1024x2048_S1024 (.inl rfl) rfl (ix1 r) = ∑ m : Fin 2048, e (ix2 r m) :=
  (Ideal.multiReduction_add_single e _ reduces_S1024x2048_S1024 _ _ (ix1 r)).trans
    (Finset.sum_congr rfl fun m _ => congrArg e (funext fun a => Fin.ext (by
      match a with | ⟨0, _⟩ => rfl | ⟨1, _⟩ => rfl)))

/-- A row statistic kept as a column and broadcast back over the 2048 columns. -/
theorem col2048_apply (v : FVec Ideal S1024 .f32) (r : Fin 1024) (m : Fin 2048) :
    broadcastTo S1024x2048 (shapeCast S1024x1 v shapeCasts_S1024_S1024x1) broadcasts_S1024x1_S1024x2048 (ix2 r m)
      = v (ix1 r) :=
  (Cert.Lib.Keepdims.bcastCol_apply _ broadcasts_S1024x1_S1024x2048 r m).trans
    (Cert.Lib.Keepdims.col_apply v shapeCasts_S1024_S1024x1 r 0)

/-- A row statistic kept as a column and broadcast back over the 256 columns. -/
theorem col256_apply (v : FVec Ideal S1024 .f32) (r : Fin 1024) (d : Fin 256) :
    broadcastTo S1024x256 (shapeCast S1024x1 v shapeCasts_S1024_S1024x1) broadcasts_S1024x1_S1024x256 (ix2 r d)
      = v (ix1 r) :=
  (Cert.Lib.Keepdims.bcastCol_apply _ broadcasts_S1024x1_S1024x256 r d).trans
    (Cert.Lib.Keepdims.col_apply v shapeCasts_S1024_S1024x1 r 0)

/-! ## The body's stages -/

section
variable (v3 : Vec Ideal S1x1024x256 .f32) (v8 : Vec Ideal S1x2048x256 .f32)

/-- The query tile, scaled. -/
def qs : FVec Ideal S1024x256 .bf16 :=
  truncf .bf16 (mulf (shapeCast S1024x256 v3 shapeCasts_S1x1024x256_S1024x256)
    (broadcast S1024x256 (Scalar.ofBits .f32 0x3D800000#32))) bitsLt_bf16_f32

/-- The keys and values. -/
def kv : FVec Ideal S2048x256 .bf16 :=
  truncf .bf16 (shapeCast S2048x256 v8 shapeCasts_S1x2048x256_S2048x256) bitsLt_bf16_f32

/-- The scores. -/
def sc : FVec Ideal S1024x2048 .f32 :=
  matmul dot_S1024x256_S2048x256_S1024x2048_1_1_0_0_n_n none (qs v3) (kv v8) (constant S1024x2048 .f32 0x00000000#32)

/-- The exponentials of the scores less their row maximum. -/
def ex : FVec Ideal S1024x2048 .f32 :=
  exp (subf (sc v3 v8) (broadcastTo S1024x2048 (shapeCast S1024x1 (multiReduction .maximumf [1] S1024 (sc v3 v8) 0xFF800000#32 reduces_S1024x2048_S1024 (.inl rfl) rfl)
    shapeCasts_S1024_S1024x1) broadcasts_S1024x1_S1024x2048))

/-- The body's value over these stages. -/
theorem pay_eq : k0_pay1 (F := Ideal) v3 v8
    = shapeCast S1x1024x256 (divf (matmul dot_S1024x2048_S2048x256_S1024x256_1_0_0_1_n_n none (truncf .bf16 (ex v3 v8) bitsLt_bf16_f32) (kv v8) (constant S1024x256 .f32 0x00000000#32))
        (broadcastTo S1024x256 (shapeCast S1024x1 (multiReduction .add [1] S1024 (ex v3 v8) 0x00000000#32 reduces_S1024x2048_S1024 (.inl rfl) rfl) shapeCasts_S1024_S1024x1) broadcasts_S1024x1_S1024x256)) shapeCasts_S1024x256_S1x1024x256 := rfl

theorem qs_apply (r : Fin 1024) (k : Fin 256) :
    qs v3 (ix2 r k) = v3 (ix3 (0 : Fin 1) r k) * Ideal.ofBits .f32 0x3D800000#32 :=
  congrArg (· * Ideal.ofBits .f32 0x3D800000#32) (Cert.Lib.UnitAxis.drop_apply v3 shapeCasts_S1x1024x256_S1024x256 r k)

theorem kv_apply (m : Fin 2048) (k : Fin 256) : kv v8 (ix2 m k) = v8 (ix3 (0 : Fin 1) m k) :=
  Cert.Lib.UnitAxis.drop_apply v8 shapeCasts_S1x2048x256_S2048x256 m k

/-- The scores are the scaled query's inner products with the rows of the slab. -/
theorem sc_apply (r : Fin 1024) (m : Fin 2048) :
    sc v3 v8 (ix2 r m) = Cert.Lib.Attn.scoreA (Ideal.ofBits .f32 0x3D800000#32) (fun k : Fin 256 => v3 (ix3 (0 : Fin 1) r k)) (fun (m : Fin 2048) (k : Fin 256) => v8 (ix3 (0 : Fin 1) m k)) m := by
  refine (Cert.Lib.RowDot.matmul_zero_apply dot_S1024x256_S2048x256_S1024x2048_1_1_0_0_n_n_wf none (qs v3) (kv v8) r m).trans ?_
  unfold Cert.Lib.Attn.scoreA
  exact Finset.sum_congr rfl fun k _ => by rw [qs_apply, kv_apply]

theorem ex_apply (r : Fin 1024) (m : Fin 2048) :
    ex v3 v8 (ix2 r m) = Ideal.exp (Cert.Lib.Attn.scoreA (Ideal.ofBits .f32 0x3D800000#32) (fun k : Fin 256 => v3 (ix3 (0 : Fin 1) r k)) (fun (m : Fin 2048) (k : Fin 256) => v8 (ix3 (0 : Fin 1) m k)) m - Cert.Lib.Attn.rowMax (Ideal.ofBits .f32 0xFF800000#32) (Cert.Lib.Attn.scoreA (Ideal.ofBits .f32 0x3D800000#32) (fun k : Fin 256 => v3 (ix3 (0 : Fin 1) r k)) (fun (m : Fin 2048) (k : Fin 256) => v8 (ix3 (0 : Fin 1) m k)))) := by
  have hs : (fun m : Fin 2048 => sc v3 v8 (ix2 r m)) = Cert.Lib.Attn.scoreA (Ideal.ofBits .f32 0x3D800000#32) (fun k : Fin 256 => v3 (ix3 (0 : Fin 1) r k)) (fun (m : Fin 2048) (k : Fin 256) => v8 (ix3 (0 : Fin 1) m k)) := funext fun m => sc_apply v3 v8 r m
  show Ideal.exp (sc v3 v8 (ix2 r m) - broadcastTo S1024x2048 (shapeCast S1024x1 (multiReduction .maximumf [1] S1024 (sc v3 v8) 0xFF800000#32 reduces_S1024x2048_S1024 (.inl rfl) rfl)
    shapeCasts_S1024_S1024x1) broadcasts_S1024x1_S1024x2048 (ix2 r m)) = _
  rw [col2048_apply, rmax_apply, hs, sc_apply]

/-- The body's value at (0, r, d): arrangement A of the attention of query row r against the slab. -/
theorem pay_apply (r : Fin 1024) (d : Fin 256) :
    k0_pay1 (F := Ideal) v3 v8 (ix3 (0 : Fin 1) r d)
      = Cert.Lib.Attn.outA (Ideal.ofBits .f32 0x3D800000#32) (Ideal.ofBits .f32 0xFF800000#32) (fun k : Fin 256 => v3 (ix3 (0 : Fin 1) r k)) (fun (m : Fin 2048) (k : Fin 256) => v8 (ix3 (0 : Fin 1) m k)) d := by
  have hnum : matmul dot_S1024x2048_S2048x256_S1024x256_1_0_0_1_n_n none (truncf .bf16 (ex v3 v8) bitsLt_bf16_f32) (kv v8) (constant S1024x256 .f32 0x00000000#32) (ix2 r d)
      = ∑ m : Fin 2048, Ideal.exp (Cert.Lib.Attn.scoreA (Ideal.ofBits .f32 0x3D800000#32) (fun k : Fin 256 => v3 (ix3 (0 : Fin 1) r k)) (fun (m : Fin 2048) (k : Fin 256) => v8 (ix3 (0 : Fin 1) m k)) m - Cert.Lib.Attn.rowMax (Ideal.ofBits .f32 0xFF800000#32) (Cert.Lib.Attn.scoreA (Ideal.ofBits .f32 0x3D800000#32) (fun k : Fin 256 => v3 (ix3 (0 : Fin 1) r k)) (fun (m : Fin 2048) (k : Fin 256) => v8 (ix3 (0 : Fin 1) m k)))) * v8 (ix3 (0 : Fin 1) m d) :=
    (Cert.Lib.PlainDot.matmul_zero_apply dot_S1024x2048_S2048x256_S1024x256_1_0_0_1_n_n_wf none (truncf .bf16 (ex v3 v8) bitsLt_bf16_f32) (kv v8) r d).trans
      (Finset.sum_congr rfl fun m _ => by rw [truncf_apply, ex_apply, kv_apply])
  have hden : broadcastTo S1024x256 (shapeCast S1024x1 (multiReduction .add [1] S1024 (ex v3 v8) 0x00000000#32 reduces_S1024x2048_S1024 (.inl rfl) rfl) shapeCasts_S1024_S1024x1) broadcasts_S1024x1_S1024x256 (ix2 r d)
      = ∑ m : Fin 2048, Ideal.exp (Cert.Lib.Attn.scoreA (Ideal.ofBits .f32 0x3D800000#32) (fun k : Fin 256 => v3 (ix3 (0 : Fin 1) r k)) (fun (m : Fin 2048) (k : Fin 256) => v8 (ix3 (0 : Fin 1) m k)) m - Cert.Lib.Attn.rowMax (Ideal.ofBits .f32 0xFF800000#32) (Cert.Lib.Attn.scoreA (Ideal.ofBits .f32 0x3D800000#32) (fun k : Fin 256 => v3 (ix3 (0 : Fin 1) r k)) (fun (m : Fin 2048) (k : Fin 256) => v8 (ix3 (0 : Fin 1) m k)))) :=
    (col256_apply _ r d).trans ((rsum_apply (ex v3 v8) r).trans (Finset.sum_congr rfl fun m _ => ex_apply v3 v8 r m))
  rw [pay_eq, Cert.Lib.UnitAxis.add_apply]
  unfold Cert.Lib.Attn.outA
  exact congrArg₂ Ideal.div hnum hden

end

end Cert.KernelIdeal.Payload

end
-- ==== Proof.KernelWhole.lean ====
/-
  The kernel's result array as one function of its argument.

  Grid point (b, qt) stages rows 0 … 2047 of batch b as its input block and writes rows 1024·qt … 1024·qt + 1023 of
  batch b of the result. Its body's value at (0, r, d) is the attention of the query row 1024·qt + r of batch b
  against batch b, which is entry (b, 1024·qt + r, d) of the specification: each written block is the
  specification's block, the sixteen blocks tile the result, so the result array is the specification.
-/
import proofs.«142337_j18992345382979_2_alg».proof.Proof.Gen.KernelIdeal.Value
import proofs.«142337_j18992345382979_2_alg».proof.Proof.Piece
import proofs.«142337_j18992345382979_2_alg».proof.Proof.Payload
import proofs.«142337_j18992345382979_2_alg».proof.Proof.Spec
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value
open Idealize.ShloMosaic.ValueIdx

variable (m : (ℓ : Loc nD τ sig) → Buf (Elt Ideal) ℓ) (ρ : Dev nD → PrngReg)

/-! ## One block, over plain variables -/

/-- The query tile of an input block, read at an index: the block's rows from the tile's offset on. -/
theorem qtile_apply (x0 : Vec Ideal S1x2048x256 .f32) (i : grid0.Coords) (qt : Fin 2)
    (hoff : k0_off1 i = ![0, 1024 * qt.val, 0]) (r : Fin 1024) (k : Fin 256) (n : Fin 2048)
    (hn : n.val = 1024 * qt.val + r.val) :
    Piece.qtile i x0 (ix3 (0 : Fin 1) r k) = x0 (ix3 (0 : Fin 1) n k) := by
  show x0 _ = x0 _
  congr 1
  funext a
  apply Fin.ext
  simp only [LoadRect.idx_apply, Rect.emb_apply, Rect.off_unit, Rect.stride_unit, Nat.one_mul, hoff]
  match a with
  | ⟨0, _⟩ => rfl
  | ⟨1, _⟩ => exact hn.symm
  | ⟨2, _⟩ => show 0 + k.val = k.val; omega

/-- The body's value on an input block that holds batch b of the array `x`, with the query tile at rows
    1024·qt on: at block index j it is the specification at the array index g over j. -/
theorem block_value (x : Cert.Spec.SArr.Idx → EReal) (x0 : Vec Ideal S1x2048x256 .f32) (i : grid0.Coords)
    (b : Fin 8) (qt : Fin 2)
    (hx0 : ∀ (n : Fin 2048) (k : Fin 256), x0 (ix3 (0 : Fin 1) n k) = x (ix3 b n k))
    (hoff : k0_off1 i = ![0, 1024 * qt.val, 0])
    (j : S1x1024x256.Idx) (g : Cert.Spec.SArr.Idx)
    (hg0 : (g 0).val = b.val) (hg1 : (g 1).val = 1024 * qt.val + (j 1).val) (hg2 : (g 2).val = (j 2).val) :
    k0_pay1 (F := Ideal) (Piece.qtile i x0) x0 j = Cert.Spec.G x g := by
  obtain ⟨u, r, d, rfl⟩ : ∃ (u : Fin 1) (r : Fin 1024) (d : Fin 256), j = ix3 u r d := ⟨j 0, j 1, j 2, eq_ix3 j⟩
  obtain rfl : u = 0 := Subsingleton.elim _ _
  obtain ⟨b', n, d', rfl⟩ : ∃ (b' : Fin 8) (n : Fin 2048) (d' : Fin 256), g = ix3 b' n d' := ⟨g 0, g 1, g 2, eq_ix3 g⟩
  obtain rfl : b' = b := Fin.ext hg0
  obtain rfl : d' = d := Fin.ext hg2
  have hn : n.val = 1024 * qt.val + r.val := hg1
  rw [Payload.pay_apply, Cert.Spec.G_apply]
  unfold Cert.Spec.attnAt
  have eQ : (fun k : Fin 256 => Piece.qtile i x0 (ix3 (0 : Fin 1) r k)) = fun k : Fin 256 => x (ix3 b' n k) :=
    funext fun k => (qtile_apply x0 i qt hoff r k n hn).trans (hx0 n k)
  have eX : (fun (n : Fin 2048) (k : Fin 256) => x0 (ix3 (0 : Fin 1) n k)) = fun (n : Fin 2048) (k : Fin 256) => x (ix3 b' n k) :=
    funext fun n => funext fun k => hx0 n k
  rw [eQ, eX]

/-! ## The grid's index maps -/

/-- The printed index maps over the sixteen points: the input block is batch `b` whole, the output block is
    (b, qt, 0) with qt the second grid coordinate. -/
theorem idx_facts : ∀ t : Fin cfg0.N,
    win0_0.index t (0 : Fin 3) = win0_1.index t (0 : Fin 3) ∧ win0_0.index t (1 : Fin 3) = 0
    ∧ win0_0.index t (2 : Fin 3) = 0 ∧ win0_1.index t (2 : Fin 3) = 0
    ∧ win0_1.index t (1 : Fin 3) = ((grid0.coords t) 1).val
    ∧ win0_1.index t (0 : Fin 3) < 8 ∧ win0_1.index t (1 : Fin 3) < 2 :=
  (by decide +kernel : ∀ t : Fin grid0.N, _)

/-- Every block of the result is some point's. -/
theorem idx_onto : ∀ (q0 : Fin 8) (q1 : Fin 2), ∃ t : Fin cfg0.N, win0_1.index t = ![q0.val, q1.val, 0] :=
  (by decide +kernel : ∀ (q0 : Fin 8) (q1 : Fin 2), ∃ t : Fin grid0.N, win0_1.index t = ![q0.val, q1.val, 0])

/-- The input block at point t is batch b of the argument. -/
theorem iblk_apply (c : Dev nD) (t : Fin cfg0.N) (b : Fin 8) (h0 : win0_0.index t (0 : Fin 3) = b.val)
    (h1 : win0_0.index t (1 : Fin 3) = 0) (h2 : win0_0.index t (2 : Fin 3) = 0) (n : Fin 2048) (k : Fin 256) :
    (iblk m c 0 t : Vec Ideal S1x2048x256 .f32) (ix3 (0 : Fin 1) n k)
      = (V m c main_arg0 : Cert.Spec.SArr.Idx → EReal) (ix3 b n k) := by
  unfold iblk
  rw [View.read_apply]
  show (V m c main_arg0 : Cert.Spec.SArr.Idx → EReal) _ = (V m c main_arg0 : Cert.Spec.SArr.Idx → EReal) _
  congr 1
  funext a
  apply Fin.ext
  match a with
  | ⟨0, _⟩ => show win0_0.index t (0 : Fin 3) * 1 + 1 * 0 = b.val; rw [h0]; omega
  | ⟨1, _⟩ => show win0_0.index t (1 : Fin 3) * 2048 + 1 * n.val = n.val; rw [h1]; omega
  | ⟨2, _⟩ => show win0_0.index t (2 : Fin 3) * 256 + 1 * k.val = k.val; rw [h2]; omega

/-! ## From the blocks to the array -/

/-- What point t writes back is block t of the specification of the argument. -/
theorem flushed_eq (c : Dev nD) (t : Fin cfg0.N) :
    (dats m 0 c).flushed 1 t = ((cfg0.win 1).blk t).view.read (Elt Ideal) (Cert.Spec.G (V m c main_arg0)) := by
  rw [flushed1_A, Piece.out_eq]
  obtain ⟨e00, e01, e02, e12, e11, hb, hq⟩ := idx_facts t
  funext j
  show k0_pay1 (F := Ideal) (Piece.qtile (grid0.coords t) (iblk m c 0 t)) (iblk m c 0 t) j
    = Cert.Spec.G (V m c main_arg0) (((cfg0.win 1).blk t).view.emb j)
  refine block_value (V m c main_arg0) (iblk m c 0 t) (grid0.coords t) ⟨win0_1.index t (0 : Fin 3), hb⟩
    ⟨win0_1.index t (1 : Fin 3), hq⟩ (fun n k => iblk_apply m c t ⟨win0_1.index t (0 : Fin 3), hb⟩ e00 e01 e02 n k)
    ((k0_off1_eq (grid0.coords t)).trans (by rw [← e11])) j (((cfg0.win 1).blk t).view.emb j) ?_ ?_ ?_
  · show win0_1.index t (0 : Fin 3) * 1 + 1 * (j 0).val = win0_1.index t (0 : Fin 3)
    have : (j 0).val < 1 := (j 0).isLt
    omega
  · show win0_1.index t (1 : Fin 3) * 1024 + 1 * (j 1).val = 1024 * win0_1.index t (1 : Fin 3) + (j 1).val
    omega
  · show win0_1.index t (2 : Fin 3) * 256 + 1 * (j 2).val = (j 2).val
    rw [e12]; omega

/-- An index of the result is in point t's block iff each coordinate is in the block's range. -/
theorem mem_blk (t : Fin cfg0.N) (i : S8x2048x256.Idx) :
    i ∈ ((cfg0.win 1).blk t).view.set ↔ ∀ a : Fin 3, win0_1.index t a * S1x1024x256.size a ≤ (i a).val
      ∧ (i a).val < win0_1.index t a * S1x1024x256.size a + S1x1024x256.size a := by
  show i ∈ ((View.whole main_v0).slice (win0_1.rect t)).set ↔ _
  rw [View.set_slice_whole, Rect.mem_set_unit]
  exact Iff.rfl

/-- The sixteen blocks cover the result: row n of batch b is in the block of point (b, n / 1024). -/
theorem cover (i : S8x2048x256.Idx) :
    ∃ t : Fin cfg0.N, (cfg0.win 1).flush t = true ∧ i ∈ ((cfg0.win 1).blk t).view.set := by
  have hi0 : (i 0).val < 8 := (i 0).isLt
  have hi1 : (i 1).val < 2048 := (i 1).isLt
  have hi2 : (i 2).val < 256 := (i 2).isLt
  obtain ⟨t, ht⟩ := idx_onto ⟨(i 0).val, hi0⟩ ⟨(i 1).val / 1024, by omega⟩
  have q0 : win0_1.index t (0 : Fin 3) = (i 0).val := congrFun ht 0
  have q1 : win0_1.index t (1 : Fin 3) = (i 1).val / 1024 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 1024 ≤ (i 1).val ∧ (i 1).val < win0_1.index t (1 : Fin 3) * 1024 + 1024
    omega
  | ⟨2, _⟩ =>
    show win0_1.index t (2 : Fin 3) * 256 ≤ (i 2).val ∧ (i 2).val < win0_1.index t (2 : Fin 3) * 256 + 256
    omega

/-- The result array after the run is the specification of the argument. -/
theorem final (c : Dev nD) : (dats m 0 c).arrAt 1 cfg0.N = Cert.Spec.G (V m c main_arg0) :=
  (dats m 0 c).arrAt_eq_of_cover 1 (Cert.Spec.G (V m c main_arg0)) (fun t _ => flushed_eq m c t) cover

/-- The kernel's run: the result array ends at the specification of the argument, the argument unchanged. -/
theorem run : θ_run defs (onTc (τ := τ) (main (F := Ideal))) ⟨m, fun _ => 0, ρ⟩ fun r => ∀ c : Dev nD,
      r.2.mem ((c : Thread nD τ).loc main_v0) = Cert.Spec.G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.lean ====
/-
  Single-pass softmax self-attention (queries, keys and values all the one input array x of shape [8, 2048, 256])
  as a Pallas kernel over a grid of 8 batches × 2 query tiles, against its jnp reference.

  At the exact values both programs compute, at (b, n, d), the softmax-weighted sum of column d of batch b with the
  scores x[b, n, ·] · x[b, m, ·] / 16: the kernel scales the query row by 1/16 before the inner products and divides
  by the sum of the exponentials after the weighted sum; the reference divides the inner products by √256 and
  normalises the weights before the weighted sum. On the extended reals those rearrangements need every entry to be
  a real number, which is the precondition (Finite); then every intermediate value is a real number, the sum of the
  exponentials is positive, and the two are equal by the field laws (LibAttnLaw, Spec).

  The kernel's result array is read block by block off its run (Piece: the one covering store; Payload: the body's
  arithmetic at an index; KernelWhole: the sixteen blocks tile the result); the reference's result is read stage by
  stage at an index (RefRead). The ideal pass rewrote nothing, so the preservation claim is trivial; the three
  frames are the generated runs.
-/
import proofs.«142337_j18992345382979_2_alg».proof.Defs
import proofs.«142337_j18992345382979_2_alg».proof.Proof.Gen.Kernel
import proofs.«142337_j18992345382979_2_alg».proof.Proof.Gen.Kernel.Skeleton
import proofs.«142337_j18992345382979_2_alg».proof.Proof.Gen.Kernel.Launch
import proofs.«142337_j18992345382979_2_alg».proof.Proof.Gen.Kernel.Points
import proofs.«142337_j18992345382979_2_alg».proof.Proof.Gen.Kernel.Frame
import proofs.«142337_j18992345382979_2_alg».proof.Proof.Gen.KernelIdeal
import proofs.«142337_j18992345382979_2_alg».proof.Proof.Gen.KernelIdeal.Skeleton
import proofs.«142337_j18992345382979_2_alg».proof.Proof.Gen.KernelIdeal.Launch
import proofs.«142337_j18992345382979_2_alg».proof.Proof.Gen.KernelIdeal.Points
import proofs.«142337_j18992345382979_2_alg».proof.Proof.Gen.KernelIdeal.Frame
import proofs.«142337_j18992345382979_2_alg».proof.Proof.Gen.ReferenceIdeal
import proofs.«142337_j18992345382979_2_alg».proof.Proof.Gen.KernelIdeal.Value
import proofs.«142337_j18992345382979_2_alg».proof.Proof.Gen.ReferenceIdeal.Run
import proofs.«142337_j18992345382979_2_alg».proof.Proof.Gen.ReferenceIdeal.Read
import proofs.«142337_j18992345382979_2_alg».proof.Proof.Gen.Pre_finite_inputs
import proofs.«142337_j18992345382979_2_alg».proof.Proof.Spec
import proofs.«142337_j18992345382979_2_alg».proof.Proof.Finite
import proofs.«142337_j18992345382979_2_alg».proof.Proof.RefRead
import proofs.«142337_j18992345382979_2_alg».proof.Proof.KernelWhole
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the specification of the argument: the kernel's by its blocks, the reference's index by
    index, where the precondition makes the reference's arrangement equal to the specification's. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, hagree c]
  funext i
  obtain ⟨b, n, d, rfl⟩ : ∃ (b : Fin 8) (n : Fin 2048) (d : Fin 256), i = ix3 b n d := ⟨i 0, i 1, i 2, eq_ix3 i⟩
  refine (Cert.ReferenceIdeal.RefRead.result_apply _ b n d).trans ?_
  exact Cert.Spec.outB_eq_attnAt _ (Cert.Finite.real_of_pre _ (hpre c)) b n d

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
